-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S128x128 : Shape := ⟨2, ![128, 128]⟩
abbrev S384x384 : Shape := ⟨2, ![384, 384]⟩
abbrev S640x640 : Shape := ⟨2, ![640, 640]⟩
abbrev S896x896 : Shape := ⟨2, ![896, 896]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S384x384 : S_.BroadcastsInDim S384x384 (![] : Fin 0 → Fin S384x384.rank)
  reducesTo_S384x384_S_d0_1 : S384x384.ReducesTo [0, 1] S_
  bcast_S_S640x640 : S_.BroadcastsInDim S640x640 (![] : Fin 0 → Fin S640x640.rank)
  reducesTo_S640x640_S_d0_1 : S640x640.ReducesTo [0, 1] S_
  bcast_S_S896x896 : S_.BroadcastsInDim S896x896 (![] : Fin 0 → Fin S896x896.rank)
  reducesTo_S896x896_S_d0_1 : S896x896.ReducesTo [0, 1] S_

variable [Facts]

def fn_part2 {F : FTy → Type} [FloatOps F] (main_arg7 : FVec F S896x896 .f32) (main_arg8 : FVec F S896x896 .f32) (main_v33 : IVec S_ 1) : IVec S_ 1 :=
  let main_v34 : FVec F S896x896 .f32 := Host.absf main_arg7
  let main_cst_12 : FVec F S_ .f32 := constant S_ .f32 0x7F800000#32
  let main_v35 : FVec F S896x896 .f32 := broadcastInDim S896x896 ![] bcast_S_S896x896 main_cst_12
  let main_v36 : IVec S896x896 1 := cmpf .olt main_v34 main_v35
  let main_c_13 : IVec S_ 1 := constantI S_ 1 1#1
  let main_v37 : IVec S_ 1 := (fun x v => Host.reduce IntOp.andi x v reducesTo_S896x896_S_d0_1 h_S_) main_v36 main_c_13
  let main_v38 : IVec S_ 1 := andi main_v33 main_v37
  let main_v39 : FVec F S896x896 .f32 := Host.absf main_arg8
  let main_cst_14 : FVec F S_ .f32 := constant S_ .f32 0x7F800000#32
  let main_v40 : FVec F S896x896 .f32 := broadcastInDim S896x896 ![] bcast_S_S896x896 main_cst_14
  let main_v41 : IVec S896x896 1 := cmpf .olt main_v39 main_v40
  let main_c_15 : IVec S_ 1 := constantI S_ 1 1#1
  let main_v42 : IVec S_ 1 := (fun x v => Host.reduce IntOp.andi x v reducesTo_S896x896_S_d0_1 h_S_) main_v41 main_c_15
  let main_v43 : IVec S_ 1 := andi main_v38 main_v42
  main_v43

def fn_part1 {F : FTy → Type} [FloatOps F] (main_arg4 : FVec F S384x384 .f32) (main_arg5 : FVec F S640x640 .f32) (main_arg6 : FVec F S640x640 .f32) (main_arg7 : FVec F S896x896 .f32) (main_arg8 : FVec F S896x896 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S640x640 .f32 := Host.absf main_arg5
  let main_cst_8 : FVec F S_ .f32 := constant S_ .f32 0x7F800000#32
  let main_v25 : FVec F S640x640 .f32 := broadcastInDim S640x640 ![] bcast_S_S640x640 main_cst_8
  let main_v26 : IVec S640x640 1 := cmpf .olt main_v24 main_v25
  let main_c_9 : IVec S_ 1 := constantI S_ 1 1#1
  let main_v27 : IVec S_ 1 := (fun x v => Host.reduce IntOp.andi x v reducesTo_S640x640_S_d0_1 h_S_) main_v26 main_c_9
  let main_v28 : IVec S_ 1 := andi main_v23 main_v27
  let main_v29 : FVec F S640x640 .f32 := Host.absf main_arg6
  let main_cst_10 : FVec F S_ .f32 := constant S_ .f32 0x7F800000#32
  let main_v30 : FVec F S640x640 .f32 := broadcastInDim S640x640 ![] bcast_S_S640x640 main_cst_10
  let main_v31 : IVec S640x640 1 := cmpf .olt main_v29 main_v30
  let main_c_11 : IVec S_ 1 := constantI S_ 1 1#1
  let main_v32 : IVec S_ 1 := (fun x v => Host.reduce IntOp.andi x v reducesTo_S640x640_S_d0_1 h_S_) main_v31 main_c_11
  let main_v33 : IVec S_ 1 := andi main_v28 main_v32
  fn_part2 (F := F) main_arg7 main_arg8 main_v33

def fn {F : FTy → Type} [FloatOps F] (main_arg0 : FVec F S32768x4096 .f32) (main_arg1 : FVec F S128x128 .f32) (main_arg2 : FVec F S128x128 .f32) (main_arg3 : FVec F S384x384 .f32) (main_arg4 : FVec F S384x384 .f32) (main_arg5 : FVec F S640x640 .f32) (main_arg6 : FVec F S640x640 .f32) (main_arg7 : FVec F S896x896 .f32) (main_arg8 : FVec F S896x896 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_arg5 main_arg6 main_arg7 main_arg8 main_v13 main_v16
-- ==== Kernel.lean ====
abbrev S32768x4096 : Shape := ⟨2, ![32768, 4096]⟩
abbrev S128x128 : Shape := ⟨2, ![128, 128]⟩
abbrev S384x384 : Shape := ⟨2, ![384, 384]⟩
abbrev S640x640 : Shape := ⟨2, ![640, 640]⟩
abbrev S896x896 : Shape := ⟨2, ![896, 896]⟩
abbrev S512x4096 : Shape := ⟨2, ![512, 4096]⟩
abbrev S512x128 : Shape := ⟨2, ![512, 128]⟩
abbrev S512x384 : Shape := ⟨2, ![512, 384]⟩
abbrev S512x640 : Shape := ⟨2, ![512, 640]⟩
abbrev S512x896 : Shape := ⟨2, ![512, 896]⟩

abbrev nBuf : Space → Nat
  | .hbm => 26
  | .vmem => 12
  | .smem => 0
  | _ => 0

abbrev bufTy : (tb : Table) → Fin (tcTables nBuf tb) → BufTy
  | .hbm, ⟨0, _⟩ => ⟨S32768x4096, .f32⟩
  | .hbm, ⟨1, _⟩ => ⟨S128x128, .f32⟩
  | .hbm, ⟨2, _⟩ => ⟨S128x128, .f32⟩
  | .hbm, ⟨3, _⟩ => ⟨S384x384, .f32⟩
  | .hbm, ⟨4, _⟩ => ⟨S384x384, .f32⟩
  | .hbm, ⟨5, _⟩ => ⟨S640x640, .f32⟩
  | .hbm, ⟨6, _⟩ => ⟨S640x640, .f32⟩
  | .hbm, ⟨7, _⟩ => ⟨S896x896, .f32⟩
  | .hbm, ⟨8, _⟩ => ⟨S896x896, .f32⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S128x128, .bf16⟩
  | .hbm, ⟨13, _⟩ => ⟨S384x384, .f32⟩
  | .hbm, ⟨14, _⟩ => ⟨S384x384, .bf16⟩
  | .hbm, ⟨15, _⟩ => ⟨S384x384, .f32⟩
  | .hbm, ⟨16, _⟩ => ⟨S384x384, .bf16⟩
  | .hbm, ⟨17, _⟩ => ⟨S640x640, .f32⟩
  | .hbm, ⟨18, _⟩ => ⟨S640x640, .bf16⟩
  | .hbm, ⟨19, _⟩ => ⟨S640x640, .f32⟩
  | .hbm, ⟨20, _⟩ => ⟨S640x640, .bf16⟩
  | .hbm, ⟨21, _⟩ => ⟨S896x896, .f32⟩
  | .hbm, ⟨22, _⟩ => ⟨S896x896, .bf16⟩
  | .hbm, ⟨23, _⟩ => ⟨S896x896, .f32⟩
  | .hbm, ⟨24, _⟩ => ⟨S896x896, .bf16⟩
  | .hbm, ⟨25, _⟩ => ⟨S32768x4096, .f32⟩
  | .local _ .vmem, ⟨0, _⟩ => ⟨S512x4096, .f32⟩
  | .local _ .vmem, ⟨1, _⟩ => ⟨S512x4096, .f32⟩
  | .local _ .vmem, ⟨2, _⟩ => ⟨S128x128, .bf16⟩
  | .local _ .vmem, ⟨3, _⟩ => ⟨S128x128, .bf16⟩
  | .local _ .vmem, ⟨4, _⟩ => ⟨S384x384, .bf16⟩
  | .local _ .vmem, ⟨5, _⟩ => ⟨S384x384, .bf16⟩
  | .local _ .vmem, ⟨6, _⟩ => ⟨S640x640, .bf16⟩
  | .local _ .vmem, ⟨7, _⟩ => ⟨S640x640, .bf16⟩
  | .local _ .vmem, ⟨8, _⟩ => ⟨S896x896, .bf16⟩
  | .local _ .vmem, ⟨9, _⟩ => ⟨S896x896, .bf16⟩
  | .local _ .vmem, ⟨10, _⟩ => ⟨S512x4096, .f32⟩
  | .local _ .vmem, ⟨11, _⟩ => ⟨S512x4096, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x896 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S896x896 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x128_S128x128_1_0 : S128x128.Transposes [1, 0] S128x128
  bitsLt_bf16_f32 : FTy.bits .bf16 < FTy.bits .f32
  transposes_S384x384_S384x384_1_0 : S384x384.Transposes [1, 0] S384x384
  transposes_S640x640_S640x640_1_0 : S640x640.Transposes [1, 0] S640x640
  transposes_S896x896_S896x896_1_0 : S896x896.Transposes [1, 0] S896x896
  inb_S512x4096_S512x128_0_0 : ∀ a, (![0, 0] : Fin 2 → Nat) a + S512x128.size a ≤ S512x4096.size a
  h_S512x128 : 0 < S512x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S512x4096_S512x128_0_128 : ∀ a, (![0, 128] : Fin 2 → Nat) a + S512x128.size a ≤ S512x4096.size a
  inb_S512x4096_S512x384_0_256 : ∀ a, (![0, 256] : Fin 2 → Nat) a + S512x384.size a ≤ S512x4096.size a
  h_S512x384 : 0 < S512x384.numel
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S512x4096_S512x384_0_640 : ∀ a, (![0, 640] : Fin 2 → Nat) a + S512x384.size a ≤ S512x4096.size a
  inb_S512x4096_S512x640_0_1024 : ∀ a, (![0, 1024] : Fin 2 → Nat) a + S512x640.size a ≤ S512x4096.size a
  h_S512x640 : 0 < S512x640.numel
  inb_S640x640_S640x640_0_0 : ∀ a, (![0, 0] : Fin 2 → Nat) a + S640x640.size a ≤ S640x640.size a
  h_S640x640 : 0 < S640x640.numel
  shapeCasts_S640x640_S640x640 : S640x640.ShapeCasts S640x640
  inb_S512x4096_S512x640_0_1664 : ∀ a, (![0, 1664] : Fin 2 → Nat) a + S512x640.size a ≤ S512x4096.size a
  inb_S512x4096_S512x896_0_2304 : ∀ a, (![0, 2304] : Fin 2 → Nat) a + S512x896.size a ≤ S512x4096.size a
  h_S512x896 : 0 < S512x896.numel
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S512x4096_S512x896_0_3200 : ∀ a, (![0, 3200] : Fin 2 → Nat) a + S512x896.size a ≤ S512x4096.size a
  dot_S512x128_S128x128_S512x128_1_0_0_1_n_n_wf : DotDims.WF S512x128 S128x128 S512x128 [1] [0] [0] [1] [] []
  dot_S512x384_S384x384_S512x384_1_0_0_1_n_n_wf : DotDims.WF S512x384 S384x384 S512x384 [1] [0] [0] [1] [] []
  dot_S512x640_S640x640_S512x640_1_0_0_1_n_n_wf : DotDims.WF S512x640 S640x640 S512x640 [1] [0] [0] [1] [] []
  dot_S512x896_S896x896_S512x896_1_0_0_1_n_n_wf : DotDims.WF S512x896 S896x896 S512x896 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .bf16 = 32 ∨ (Rect.block (s := S384x384) S384x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .bf16 = 32 ∨ (Rect.block (s := S384x384) S384x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x640.size a ≤ S640x640.size a
  hwx0_5 : ∀ i : grid0.Coords, EltTy.bits .bf16 = 32 ∨ (Rect.block (s := S640x640) S640x640.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x640.size a ≤ S640x640.size a
  hwx0_6 : ∀ i : grid0.Coords, EltTy.bits .bf16 = 32 ∨ (Rect.block (s := S640x640) S640x640.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S896x896.size a ≤ S896x896.size a
  hwx0_7 : ∀ i : grid0.Coords, EltTy.bits .bf16 = 32 ∨ (Rect.block (s := S896x896) S896x896.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S896x896.size a ≤ S896x896.size a
  hwx0_8 : ∀ i : grid0.Coords, EltTy.bits .bf16 = 32 ∨ (Rect.block (s := S896x896) S896x896.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x4096.size a ≤ S32768x4096.size a
  hwx0_9 : ∀ i : grid0.Coords, EltTy.bits .f32 = 32 ∨ (Rect.block (s := S32768x4096) S512x4096.size (cc0_transform_9 i) (hinb0_9 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x640_S640x640_S512x640_1_0_0_1_n_n : DotDims S512x640 S640x640 S512x640 where
  lhsContracting := [1]
  rhsContracting := [0]
  lhsNonContracting := [0]
  rhsNonContracting := [1]
  lhsBatch := []
  rhsBatch := []
  wf := dot_S512x640_S640x640_S512x640_1_0_0_1_n_n_wf
def dot_S512x896_S896x896_S512x896_1_0_0_1_n_n : DotDims S512x896 S896x896 S512x896 where
  lhsContracting := [1]
  rhsContracting := [0]
  lhsNonContracting := [0]
  rhsNonContracting := [1]
  lhsBatch := []
  rhsBatch := []
  wf := dot_S512x896_S896x896_S512x896_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S640x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S640x640.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S896x896.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S896x896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S512x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S128x128 : Shape := ⟨2, ![128, 128]⟩
abbrev S384x384 : Shape := ⟨2, ![384, 384]⟩
abbrev S640x640 : Shape := ⟨2, ![640, 640]⟩
abbrev S896x896 : Shape := ⟨2, ![896, 896]⟩
abbrev S32768x128 : Shape := ⟨2, ![32768, 128]⟩
abbrev S32768x384 : Shape := ⟨2, ![32768, 384]⟩
abbrev S32768x640 : Shape := ⟨2, ![32768, 640]⟩
abbrev S32768x896 : Shape := ⟨2, ![32768, 896]⟩

abbrev nBuf : Space → Nat
  | .hbm => 34
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S128x128, .f32⟩
  | .hbm, ⟨2, _⟩ => ⟨S128x128, .f32⟩
  | .hbm, ⟨3, _⟩ => ⟨S384x384, .f32⟩
  | .hbm, ⟨4, _⟩ => ⟨S384x384, .f32⟩
  | .hbm, ⟨5, _⟩ => ⟨S640x640, .f32⟩
  | .hbm, ⟨6, _⟩ => ⟨S640x640, .f32⟩
  | .hbm, ⟨7, _⟩ => ⟨S896x896, .f32⟩
  | .hbm, ⟨8, _⟩ => ⟨S896x896, .f32⟩
  | .hbm, ⟨9, _⟩ => ⟨S32768x128, .f32⟩
  | .hbm, ⟨10, _⟩ => ⟨S128x128, .f32⟩
  | .hbm, ⟨11, _⟩ => ⟨S32768x128, .f32⟩
  | .hbm, ⟨12, _⟩ => ⟨S32768x128, .f32⟩
  | .hbm, ⟨13, _⟩ => ⟨S128x128, .f32⟩
  | .hbm, ⟨14, _⟩ => ⟨S32768x128, .f32⟩
  | .hbm, ⟨15, _⟩ => ⟨S32768x384, .f32⟩
  | .hbm, ⟨16, _⟩ => ⟨S384x384, .f32⟩
  | .hbm, ⟨17, _⟩ => ⟨S32768x384, .f32⟩
  | .hbm, ⟨18, _⟩ => ⟨S32768x384, .f32⟩
  | .hbm, ⟨19, _⟩ => ⟨S384x384, .f32⟩
  | .hbm, ⟨20, _⟩ => ⟨S32768x384, .f32⟩
  | .hbm, ⟨21, _⟩ => ⟨S32768x640, .f32⟩
  | .hbm, ⟨22, _⟩ => ⟨S640x640, .f32⟩
  | .hbm, ⟨23, _⟩ => ⟨S32768x640, .f32⟩
  | .hbm, ⟨24, _⟩ => ⟨S32768x640, .f32⟩
  | .hbm, ⟨25, _⟩ => ⟨S640x640, .f32⟩
  | .hbm, ⟨26, _⟩ => ⟨S32768x640, .f32⟩
  | .hbm, ⟨27, _⟩ => ⟨S32768x896, .f32⟩
  | .hbm, ⟨28, _⟩ => ⟨S896x896, .f32⟩
  | .hbm, ⟨29, _⟩ => ⟨S32768x896, .f32⟩
  | .hbm, ⟨30, _⟩ => ⟨S32768x896, .f32⟩
  | .hbm, ⟨31, _⟩ => ⟨S896x896, .f32⟩
  | .hbm, ⟨32, _⟩ => ⟨S32768x896, .f32⟩
  | .hbm, ⟨33, _⟩ => ⟨S32768x4096, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S32768x4096_S32768x128_0_0 : S32768x4096.Slices ![0, 0] S32768x128
  transposes_S128x128_S128x128_1_0 : S128x128.Transposes [1, 0] S128x128
  slices_S32768x4096_S32768x128_0_128 : S32768x4096.Slices ![0, 128] S32768x128
  slices_S32768x4096_S32768x384_0_256 : S32768x4096.Slices ![0, 256] S32768x384
  transposes_S384x384_S384x384_1_0 : S384x384.Transposes [1, 0] S384x384
  slices_S32768x4096_S32768x384_0_640 : S32768x4096.Slices ![0, 640] S32768x384
  slices_S32768x4096_S32768x640_0_1024 : S32768x4096.Slices ![0, 1024] S32768x640
  transposes_S640x640_S640x640_1_0 : S640x640.Transposes [1, 0] S640x640
  slices_S32768x4096_S32768x640_0_1664 : S32768x4096.Slices ![0, 1664] S32768x640
  slices_S32768x4096_S32768x896_0_2304 : S32768x4096.Slices ![0, 2304] S32768x896
  transposes_S896x896_S896x896_1_0 : S896x896.Transposes [1, 0] S896x896
  slices_S32768x4096_S32768x896_0_3200 : S32768x4096.Slices ![0, 3200] S32768x896
  concatenates_S32768x128_S32768x128_S32768x384_S32768x384_S32768x640_S32768x640_S32768x896_S32768x896_S32768x4096_d1 : Shape.Concatenates [S32768x128, S32768x128, S32768x384, S32768x384, S32768x640, S32768x640, S32768x896, S32768x896] S32768x4096 1
  dot_S32768x128_S128x128_S32768x128_1_0_0_1_n_n_wf : DotDims.WF S32768x128 S128x128 S32768x128 [1] [0] [0] [1] [] []
  dot_S32768x384_S384x384_S32768x384_1_0_0_1_n_n_wf : DotDims.WF S32768x384 S384x384 S32768x384 [1] [0] [0] [1] [] []
  dot_S32768x640_S640x640_S32768x640_1_0_0_1_n_n_wf : DotDims.WF S32768x640 S640x640 S32768x640 [1] [0] [0] [1] [] []
  dot_S32768x896_S896x896_S32768x896_1_0_0_1_n_n_wf : DotDims.WF S32768x896 S896x896 S32768x896 [1] [0] [0] [1] [] []

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x384_S384x384_S32768x384_1_0_0_1_n_n : DotDims S32768x384 S384x384 S32768x384 where
  lhsContracting := [1]
  rhsContracting := [0]
  lhsNonContracting := [0]
  rhsNonContracting := [1]
  lhsBatch := []
  rhsBatch := []
  wf := dot_S32768x384_S384x384_S32768x384_1_0_0_1_n_n_wf
def dot_S32768x640_S640x640_S32768x640_1_0_0_1_n_n : DotDims S32768x640 S640x640 S32768x640 where
  lhsContracting := [1]
  rhsContracting := [0]
  lhsNonContracting := [0]
  rhsNonContracting := [1]
  lhsBatch := []
  rhsBatch := []
  wf := dot_S32768x640_S640x640_S32768x640_1_0_0_1_n_n_wf
def dot_S32768x896_S896x896_S32768x896_1_0_0_1_n_n : DotDims S32768x896 S896x896 S32768x896 where
  lhsContracting := [1]
  rhsContracting := [0]
  lhsNonContracting := [0]
  rhsNonContracting := [1]
  lhsBatch := []
  rhsBatch := []
  wf := dot_S32768x896_S896x896_S32768x896_1_0_0_1_n_n_wf

class Facts : Prop extends Facts₀ where

variable [Facts]
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.SliceLinear.lean ====
/-
  Eight square matrices applied to eight consecutive column segments of a matrix.

  A row of 4096 entries is cut into eight consecutive segments, of widths 128, 128, 384, 384, 640, 640, 896 and 896,
  starting at columns 0, 128, 256, 640, 1024, 1664, 2304 and 3200. Segment l of a result row is segment l of the
  input row multiplied by a square matrix B_l of that width:

      out (r, s_l + q) = sum over k < w_l of x (r, s_l + k) * B_l (k, q).

  So the result is the input times a block-diagonal 4096 x 4096 matrix whose diagonal blocks are B_0, ..., B_7. Nothing
  here needs the entries to be finite: a sum of products on the extended reals is a function of its terms, and both
  programs this is compared with form the same terms in the same places.

  `pick` assembles a row from its eight segments, `seg` is one segment's product, `blockDiag` the whole array. An
  entry of the result depends on one row of the input only (`blockDiag_row`), which is what lets a block of 512 rows be
  computed on its own.
-/
import Idealize.ShloMosaic.PureOps.Ideal
import Idealize.ShloMosaic.Lib.ValueIdx

noncomputable section

namespace Cert.SliceLinear

open Idealize.ShloMosaic Idealize.ShloMosaic.ValueIdx
open scoped BigOperators

/-! ## A row of 4096 entries from its eight segments -/

/-- The entry at column `col` of the row whose eight segments are `f0`, ..., `f7`, each given on its own coordinates. -/
def pick {α : Type} (f0 f1 : Fin 128 → α) (f2 f3 : Fin 384 → α) (f4 f5 : Fin 640 → α) (f6 f7 : Fin 896 → α)
    (col : Fin 4096) : α :=
  if h0 : col.val < 128 then f0 ⟨col.val, h0⟩
  else if h1 : col.val < 256 then f1 ⟨col.val - 128, by omega⟩
  else if h2 : col.val < 640 then f2 ⟨col.val - 256, by omega⟩
  else if h3 : col.val < 1024 then f3 ⟨col.val - 640, by omega⟩
  else if h4 : col.val < 1664 then f4 ⟨col.val - 1024, by omega⟩
  else if h5 : col.val < 2304 then f5 ⟨col.val - 1664, by omega⟩
  else if h6 : col.val < 3200 then f6 ⟨col.val - 2304, by omega⟩
  else f7 ⟨col.val - 3200, by have := col.isLt; omega⟩

section Pick

variable {α : Type} (f0 f1 : Fin 128 → α) (f2 f3 : Fin 384 → α) (f4 f5 : Fin 640 → α) (f6 f7 : Fin 896 → α)

/-- Column `0 + q` lies in segment 0, at its coordinate `q`. -/
theorem pick_0 (col : Fin 4096) (q : Fin 128) (h : col.val = 0 + q.val) : pick f0 f1 f2 f3 f4 f5 f6 f7 col = f0 q := by
  have hq := q.isLt
  unfold pick
  rw [dif_pos (by omega)]
  exact congrArg f0 (Fin.ext (by show col.val = q.val; omega))

/-- Column `128 + q` lies in segment 1. -/
theorem pick_1 (col : Fin 4096) (q : Fin 128) (h : col.val = 128 + q.val) : pick f0 f1 f2 f3 f4 f5 f6 f7 col = f1 q := by
  have hq := q.isLt
  unfold pick
  rw [dif_neg (by omega), dif_pos (by omega)]
  exact congrArg f1 (Fin.ext (by show col.val - 128 = q.val; omega))

/-- Column `256 + q` lies in segment 2. -/
theorem pick_2 (col : Fin 4096) (q : Fin 384) (h : col.val = 256 + q.val) : pick f0 f1 f2 f3 f4 f5 f6 f7 col = f2 q := by
  have hq := q.isLt
  unfold pick
  rw [dif_neg (by omega), dif_neg (by omega), dif_pos (by omega)]
  exact congrArg f2 (Fin.ext (by show col.val - 256 = q.val; omega))

/-- Column `640 + q` lies in segment 3. -/
theorem pick_3 (col : Fin 4096) (q : Fin 384) (h : col.val = 640 + q.val) : pick f0 f1 f2 f3 f4 f5 f6 f7 col = f3 q := by
  have hq := q.isLt
  unfold pick
  rw [dif_neg (by omega), dif_neg (by omega), dif_neg (by omega), dif_pos (by omega)]
  exact congrArg f3 (Fin.ext (by show col.val - 640 = q.val; omega))

/-- Column `1024 + q` lies in segment 4. -/
theorem pick_4 (col : Fin 4096) (q : Fin 640) (h : col.val = 1024 + q.val) : pick f0 f1 f2 f3 f4 f5 f6 f7 col = f4 q := by
  have hq := q.isLt
  unfold pick
  rw [dif_neg (by omega), dif_neg (by omega), dif_neg (by omega), dif_neg (by omega), dif_pos (by omega)]
  exact congrArg f4 (Fin.ext (by show col.val - 1024 = q.val; omega))

/-- Column `1664 + q` lies in segment 5. -/
theorem pick_5 (col : Fin 4096) (q : Fin 640) (h : col.val = 1664 + q.val) : pick f0 f1 f2 f3 f4 f5 f6 f7 col = f5 q := by
  have hq := q.isLt
  unfold pick
  rw [dif_neg (by omega), dif_neg (by omega), dif_neg (by omega), dif_neg (by omega), dif_neg (by omega),
    dif_pos (by omega)]
  exact congrArg f5 (Fin.ext (by show col.val - 1664 = q.val; omega))

/-- Column `2304 + q` lies in segment 6. -/
theorem pick_6 (col : Fin 4096) (q : Fin 896) (h : col.val = 2304 + q.val) : pick f0 f1 f2 f3 f4 f5 f6 f7 col = f6 q := by
  have hq := q.isLt
  unfold pick
  rw [dif_neg (by omega), dif_neg (by omega), dif_neg (by omega), dif_neg (by omega), dif_neg (by omega),
    dif_neg (by omega), dif_pos (by omega)]
  exact congrArg f6 (Fin.ext (by show col.val - 2304 = q.val; omega))

/-- Column `3200 + q` lies in segment 7. -/
theorem pick_7 (col : Fin 4096) (q : Fin 896) (h : col.val = 3200 + q.val) : pick f0 f1 f2 f3 f4 f5 f6 f7 col = f7 q := by
  have hq := q.isLt
  unfold pick
  rw [dif_neg (by omega), dif_neg (by omega), dif_neg (by omega), dif_neg (by omega), dif_neg (by omega),
    dif_neg (by omega), dif_neg (by omega)]
  exact congrArg f7 (Fin.ext (by show col.val - 3200 = q.val; omega))

/-- The eight segments exhaust the row: a function of the column that agrees with `f_l` on segment `l`, for every `l`,
    is the assembled row. -/
theorem eq_pick (g : Fin 4096 → α)
    (h0 : ∀ (col : Fin 4096) (q : Fin 128), col.val = 0 + q.val → g col = f0 q)
    (h1 : ∀ (col : Fin 4096) (q : Fin 128), col.val = 128 + q.val → g col = f1 q)
    (h2 : ∀ (col : Fin 4096) (q : Fin 384), col.val = 256 + q.val → g col = f2 q)
    (h3 : ∀ (col : Fin 4096) (q : Fin 384), col.val = 640 + q.val → g col = f3 q)
    (h4 : ∀ (col : Fin 4096) (q : Fin 640), col.val = 1024 + q.val → g col = f4 q)
    (h5 : ∀ (col : Fin 4096) (q : Fin 640), col.val = 1664 + q.val → g col = f5 q)
    (h6 : ∀ (col : Fin 4096) (q : Fin 896), col.val = 2304 + q.val → g col = f6 q)
    (h7 : ∀ (col : Fin 4096) (q : Fin 896), col.val = 3200 + q.val → g col = f7 q)
    (col : Fin 4096) : g col = pick f0 f1 f2 f3 f4 f5 f6 f7 col := by
  have hc := col.isLt
  unfold pick
  split_ifs with c0 c1 c2 c3 c4 c5 c6
  · exact h0 col ⟨col.val, c0⟩ (by show col.val = 0 + col.val; omega)
  · exact h1 col ⟨col.val - 128, by omega⟩ (by show col.val = 128 + (col.val - 128); omega)
  · exact h2 col ⟨col.val - 256, by omega⟩ (by show col.val = 256 + (col.val - 256); omega)
  · exact h3 col ⟨col.val - 640, by omega⟩ (by show col.val = 640 + (col.val - 640); omega)
  · exact h4 col ⟨col.val - 1024, by omega⟩ (by show col.val = 1024 + (col.val - 1024); omega)
  · exact h5 col ⟨col.val - 1664, by omega⟩ (by show col.val = 1664 + (col.val - 1664); omega)
  · exact h6 col ⟨col.val - 2304, by omega⟩ (by show col.val = 2304 + (col.val - 2304); omega)
  · exact h7 col ⟨col.val - 3200, by omega⟩ (by show col.val = 3200 + (col.val - 3200); omega)

end Pick

/-! ## One segment's product, and the whole array -/

/-- Entry `q` of the product of the `w` entries of row `r` of `x` from column `s` on with the `w` by `w` matrix `B`. -/
def seg (R w s : ℕ) (hs : s + w ≤ 4096) (x : (⟨2, ![R, 4096]⟩ : Shape).Idx → EReal)
    (B : (⟨2, ![w, w]⟩ : Shape).Idx → EReal) (r : Fin R) (q : Fin w) : EReal :=
  ∑ k : Fin w, x (ix2 r ⟨s + k.val, by have := k.isLt; omega⟩) * B (ix2 k q)

/-- It reads row `r` of `x` only. -/
theorem seg_row {R R' w s : ℕ} (hs : s + w ≤ 4096) (x : (⟨2, ![R, 4096]⟩ : Shape).Idx → EReal)
    (x' : (⟨2, ![R', 4096]⟩ : Shape).Idx → EReal) (B : (⟨2, ![w, w]⟩ : Shape).Idx → EReal) (r : Fin R) (r' : Fin R')
    (h : ∀ col : Fin 4096, x (ix2 r col) = x' (ix2 r' col)) : seg R w s hs x B r = seg R' w s hs x' B r' :=
  funext fun q => Finset.sum_congr rfl fun k _ => by rw [h]

/-- The input times the block-diagonal matrix with diagonal blocks `B0`, ..., `B7`. -/
def blockDiag (R : ℕ) (x : (⟨2, ![R, 4096]⟩ : Shape).Idx → EReal)
    (B0 B1 : (⟨2, ![128, 128]⟩ : Shape).Idx → EReal) (B2 B3 : (⟨2, ![384, 384]⟩ : Shape).Idx → EReal)
    (B4 B5 : (⟨2, ![640, 640]⟩ : Shape).Idx → EReal) (B6 B7 : (⟨2, ![896, 896]⟩ : Shape).Idx → EReal) :
    (⟨2, ![R, 4096]⟩ : Shape).Idx → EReal := fun j =>
  pick (seg R 128 0 (by omega) x B0 (j 0)) (seg R 128 128 (by omega) x B1 (j 0))
    (seg R 384 256 (by omega) x B2 (j 0)) (seg R 384 640 (by omega) x B3 (j 0))
    (seg R 640 1024 (by omega) x B4 (j 0)) (seg R 640 1664 (by omega) x B5 (j 0))
    (seg R 896 2304 (by omega) x B6 (j 0)) (seg R 896 3200 (by omega) x B7 (j 0)) (j 1)

section BlockDiag

variable {R : ℕ} (x : (⟨2, ![R, 4096]⟩ : Shape).Idx → EReal)
  (B0 B1 : (⟨2, ![128, 128]⟩ : Shape).Idx → EReal) (B2 B3 : (⟨2, ![384, 384]⟩ : Shape).Idx → EReal)
  (B4 B5 : (⟨2, ![640, 640]⟩ : Shape).Idx → EReal) (B6 B7 : (⟨2, ![896, 896]⟩ : Shape).Idx → EReal)

/-- The array at row `r`, as a row assembled from its eight segments. -/
theorem blockDiag_apply (r : Fin R) (col : Fin 4096) :
    blockDiag R x B0 B1 B2 B3 B4 B5 B6 B7 (ix2 r col)
      = pick (seg R 128 0 (by omega) x B0 r) (seg R 128 128 (by omega) x B1 r)
          (seg R 384 256 (by omega) x B2 r) (seg R 384 640 (by omega) x B3 r)
          (seg R 640 1024 (by omega) x B4 r) (seg R 640 1664 (by omega) x B5 r)
          (seg R 896 2304 (by omega) x B6 r) (seg R 896 3200 (by omega) x B7 r) col := rfl

/-- An entry of the result depends on one row of the input only. -/
theorem blockDiag_row {R' : ℕ} (x' : (⟨2, ![R', 4096]⟩ : Shape).Idx → EReal) (r : Fin R) (r' : Fin R')
    (h : ∀ col : Fin 4096, x (ix2 r col) = x' (ix2 r' col)) (col : Fin 4096) :
    blockDiag R x B0 B1 B2 B3 B4 B5 B6 B7 (ix2 r col) = blockDiag R' x' B0 B1 B2 B3 B4 B5 B6 B7 (ix2 r' col) := by
  rw [blockDiag_apply, blockDiag_apply, seg_row _ x x' B0 r r' h, seg_row _ x x' B1 r r' h, seg_row _ x x' B2 r r' h,
    seg_row _ x x' B3 r r' h, seg_row _ x x' B4 r r' h, seg_row _ x x' B5 r r' h, seg_row _ x x' B6 r r' h,
    seg_row _ x x' B7 r r' h]

/-- An array that holds, on every segment of every row, that segment's product, is the whole product. -/
theorem eq_blockDiag (A : (⟨2, ![R, 4096]⟩ : Shape).Idx → EReal)
    (h0 : ∀ (r : Fin R) (col : Fin 4096) (q : Fin 128), col.val = 0 + q.val → A (ix2 r col) = seg R 128 0 (by omega) x B0 r q)
    (h1 : ∀ (r : Fin R) (col : Fin 4096) (q : Fin 128), col.val = 128 + q.val → A (ix2 r col) = seg R 128 128 (by omega) x B1 r q)
    (h2 : ∀ (r : Fin R) (col : Fin 4096) (q : Fin 384), col.val = 256 + q.val → A (ix2 r col) = seg R 384 256 (by omega) x B2 r q)
    (h3 : ∀ (r : Fin R) (col : Fin 4096) (q : Fin 384), col.val = 640 + q.val → A (ix2 r col) = seg R 384 640 (by omega) x B3 r q)
    (h4 : ∀ (r : Fin R) (col : Fin 4096) (q : Fin 640), col.val = 1024 + q.val → A (ix2 r col) = seg R 640 1024 (by omega) x B4 r q)
    (h5 : ∀ (r : Fin R) (col : Fin 4096) (q : Fin 640), col.val = 1664 + q.val → A (ix2 r col) = seg R 640 1664 (by omega) x B5 r q)
    (h6 : ∀ (r : Fin R) (col : Fin 4096) (q : Fin 896), col.val = 2304 + q.val → A (ix2 r col) = seg R 896 2304 (by omega) x B6 r q)
    (h7 : ∀ (r : Fin R) (col : Fin 4096) (q : Fin 896), col.val = 3200 + q.val → A (ix2 r col) = seg R 896 3200 (by omega) x B7 r q) :
    A = blockDiag R x B0 B1 B2 B3 B4 B5 B6 B7 := by
  funext j
  obtain ⟨r, col, rfl⟩ : ∃ (r : Fin R) (col : Fin 4096), j = ix2 r col := ⟨j 0, j 1, eq_ix2 j⟩
  rw [blockDiag_apply]
  exact eq_pick _ _ _ _ _ _ _ _ (fun col => A (ix2 r col)) (h0 r) (h1 r) (h2 r) (h3 r) (h4 r) (h5 r) (h6 r) (h7 r) col

end BlockDiag

end Cert.SliceLinear

end
-- ==== Proof.KernelBlock.lean ====
/-
  What the kernel's body leaves in its output block: the 512 rows of the input block times the block-diagonal matrix.

  The body cuts the 512 x 4096 input block into eight column slabs (widths 128, 128, 384, 384, 640, 640, 896, 896),
  multiplies each slab by the square matrix it holds for that slab, and stores the product into the same columns of the
  output block. On the extended reals the change of float format before the product is the identity and the product
  into a zero accumulator is the plain sum of products, so the slab that starts at column s holds at (p, q)

      sum over k < w of x (p, s + k) * B (k, q),

  which is segment (p, s .. s + w) of `SliceLinear.blockDiag 512`. The eight stores cover the block, so the block is
  that function everywhere.
-/
import proofs.«171077_j14791867368254_2_alg».proof.Proof.Gen.KernelIdeal.Frame
import proofs.«171077_j14791867368254_2_alg».proof.Proof.LibInnerProducts
import proofs.«171077_j14791867368254_2_alg».proof.Proof.SliceLinear
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.ShloMosaic.Tactic
open Idealize.ShloMosaic.ValueIdx Idealize.SL.Sem Cert.SliceLinear
open scoped BigOperators

theorem hz : (![0, 0] : Fin 2 → ℕ) = fun _ => 0 := funext fun a => by fin_cases a <;> rfl

/-! ## One slab's product -/

/-- A 512 x w slab, rounded to the narrower format, times a w x w matrix, into the zero accumulator: at the ideal
    values the entry (p, q) is the inner product of row p of the slab with column q of the matrix. -/
theorem slab_product {w : ℕ} (D : DotDims ⟨2, ![512, w]⟩ ⟨2, ![w, w]⟩ ⟨2, ![512, w]⟩) (hD : D = DotDims.plain 512 w w)
    (a : FVec Ideal ⟨2, ![512, w]⟩ .f32) (B : FVec Ideal ⟨2, ![w, w]⟩ .bf16) (h1 : FTy.bits .bf16 < FTy.bits .f32)
    (h2 : (⟨2, ![w, w]⟩ : Shape).ShapeCasts ⟨2, ![w, w]⟩) (p : Fin 512) (q : Fin w) :
    matmul D none (truncf .bf16 a h1) (shapeCast ⟨2, ![w, w]⟩ B h2)
        (constant (F := Ideal) ⟨2, ![512, w]⟩ .f32 0x00000000#32) (ix2 p q)
      = ∑ k : Fin w, a (ix2 p k) * B (ix2 k q) := by
  rw [shapeCast_self]
  exact InnerProducts.matmul_zero_apply D hD none (truncf .bf16 a h1) B p q

theorem pay5_apply (v0 : Vec Ideal S512x128 .f32) (v2 : Vec Ideal S128x128 .bf16) (p : Fin 512) (q : Fin 128) :
    k0_pay5 v0 v2 (ix2 p q) = ∑ k : Fin 128, v0 (ix2 p k) * v2 (ix2 k q) :=
  slab_product _ rfl v0 v2 _ _ p q

theorem pay6_apply (v0 : Vec Ideal S512x128 .f32) (v2 : Vec Ideal S128x128 .bf16) (p : Fin 512) (q : Fin 128) :
    k0_pay6 v0 v2 (ix2 p q) = ∑ k : Fin 128, v0 (ix2 p k) * v2 (ix2 k q) :=
  slab_product _ rfl v0 v2 _ _ p q

theorem pay7_apply (v0 : Vec Ideal S512x384 .f32) (v2 : Vec Ideal S384x384 .bf16) (p : Fin 512) (q : Fin 384) :
    k0_pay7 v0 v2 (ix2 p q) = ∑ k : Fin 384, v0 (ix2 p k) * v2 (ix2 k q) :=
  slab_product _ rfl v0 v2 _ _ p q

theorem pay8_apply (v0 : Vec Ideal S512x384 .f32) (v2 : Vec Ideal S384x384 .bf16) (p : Fin 512) (q : Fin 384) :
    k0_pay8 v0 v2 (ix2 p q) = ∑ k : Fin 384, v0 (ix2 p k) * v2 (ix2 k q) :=
  slab_product _ rfl v0 v2 _ _ p q

theorem pay1_apply (v0 : Vec Ideal S512x640 .f32) (v2 : Vec Ideal S640x640 .bf16) (p : Fin 512) (q : Fin 640) :
    k0_pay1 v0 v2 (ix2 p q) = ∑ k : Fin 640, v0 (ix2 p k) * v2 (ix2 k q) :=
  slab_product _ rfl v0 v2 _ _ p q

theorem pay2_apply (v0 : Vec Ideal S512x640 .f32) (v2 : Vec Ideal S640x640 .bf16) (p : Fin 512) (q : Fin 640) :
    k0_pay2 v0 v2 (ix2 p q) = ∑ k : Fin 640, v0 (ix2 p k) * v2 (ix2 k q) :=
  slab_product _ rfl v0 v2 _ _ p q

theorem pay3_apply (v0 : Vec Ideal S512x896 .f32) (v2 : Vec Ideal S896x896 .bf16) (p : Fin 512) (q : Fin 896) :
    k0_pay3 v0 v2 (ix2 p q) = ∑ k : Fin 896, v0 (ix2 p k) * v2 (ix2 k q) :=
  slab_product _ rfl v0 v2 _ _ p q

theorem pay4_apply (v0 : Vec Ideal S512x896 .f32) (v2 : Vec Ideal S896x896 .bf16) (p : Fin 512) (q : Fin 896) :
    k0_pay4 v0 v2 (ix2 p q) = ∑ k : Fin 896, v0 (ix2 p k) * v2 (ix2 k q) :=
  slab_product _ rfl v0 v2 _ _ p q

/-! ## A slab inside the block -/

/-- The slab of width w that starts at column s, placed in the block: its entry (p, q) is the block's (p, s + q). -/
theorem slab_emb {w s : ℕ} (hs : s + w ≤ 4096)
    (inb : ∀ a, (![0, s] : Fin 2 → ℕ) a + (![512, w] : Fin 2 → ℕ) a ≤ (⟨2, ![512, 4096]⟩ : Shape).size a)
    (p : Fin 512) (q : Fin w) :
    (Rect.unit (s := ⟨2, ![512, 4096]⟩) ![0, s] ![512, w] inb).emb (ix2 p q)
      = ix2 p (⟨s + q.val, by have := q.isLt; omega⟩ : Fin 4096) := by
  funext a
  apply Fin.ext
  match a with
  | ⟨0, _⟩ => show 0 + 1 * p.val = p.val; omega
  | ⟨1, _⟩ => show s + 1 * q.val = s + q.val; omega

/-- The inner products of a slab read out of the block, with a square matrix, are one segment's product. -/
theorem slab_seg {w s : ℕ} (hs : s + w ≤ 4096)
    (inb : ∀ a, (![0, s] : Fin 2 → ℕ) a + (![512, w] : Fin 2 → ℕ) a ≤ (⟨2, ![512, 4096]⟩ : Shape).size a)
    (x0 : Vec Ideal ⟨2, ![512, 4096]⟩ .f32) (B : (⟨2, ![w, w]⟩ : Shape).Idx → EReal) (p : Fin 512) (q : Fin w) :
    ∑ k : Fin w, View.ld (Val := Elt Ideal) x0 (Rect.unit (s := ⟨2, ![512, 4096]⟩) ![0, s] ![512, w] inb) (ix2 p k) * B (ix2 k q)
      = seg 512 w s hs x0 B p q := by
  unfold seg
  refine Finset.sum_congr rfl fun k _ => ?_
  show x0 ((Rect.unit (s := ⟨2, ![512, 4096]⟩) ![0, s] ![512, w] inb).emb (ix2 p k)) * _ = _
  rw [slab_emb hs inb p k]

/-! ## The block the body leaves -/

/-- The output block after the body, whatever it held before: the 512 input rows times the block-diagonal matrix of
    the eight matrices the body holds. Each of the eight stored pieces is that function on the piece's own columns
    (`slab_seg`), and the pieces cover the block. -/
theorem out_eq (c : Dev nD) (i : grid0.Coords) (arg1 : Memref sig .tc .vmem S512x4096 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S384x384 .bf16) (harg4 : arg4.IsWhole) (arg5 : Memref sig .tc .vmem S384x384 .bf16) (harg5 : arg5.IsWhole) (arg6 : Memref sig .tc .vmem S640x640 .bf16) (harg6 : arg6.IsWhole) (arg7 : Memref sig .tc .vmem S640x640 .bf16) (harg7 : arg7.IsWhole) (arg8 : Memref sig .tc .vmem S896x896 .bf16) (harg8 : arg8.IsWhole) (arg9 : Memref sig .tc .vmem S896x896 .bf16) (harg9 : arg9.IsWhole) (arg10 : Memref sig .tc .vmem S512x4096 .f32) (harg10 : arg10.IsWhole)
    (x0 : Vec Ideal S512x4096 .f32) (x1 : Vec Ideal S128x128 .bf16) (x2 : Vec Ideal S128x128 .bf16) (x3 : Vec Ideal S384x384 .bf16) (x4 : Vec Ideal S384x384 .bf16) (x5 : Vec Ideal S640x640 .bf16) (x6 : Vec Ideal S640x640 .bf16) (x7 : Vec Ideal S896x896 .bf16) (x8 : Vec Ideal S896x896 .bf16) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 = blockDiag 512 x0 x1 x2 x3 x4 x5 x6 x7 x8 := by
  funext j
  unfold out0_A_9
  rw [View.read_writes_junk_eq_canon]
  refine View.canon_apply_of_pieces (blockDiag 512 x0 x1 x2 x3 x4 x5 x6 x7 x8) _ ?_ j (cover0_A_9 c i arg1 harg1 arg2 harg2 arg3 harg3 arg4 harg4 arg5 harg5 arg6 harg6 arg7 harg7 arg8 harg8 arg9 harg9 arg10 harg10 x0 x1 x2 x3 x4 x5 x6 x7 x8 j)
  unfold kernelRun0_A
  dsimp only
  sl_unfold_words
  intro pc hpc
  simp only [List.mem_cons, List.not_mem_nil, or_false] at hpc
  rcases hpc with rfl | rfl | rfl | rfl | rfl | rfl | rfl | rfl
  · dsimp only
    intro y
    obtain ⟨p, q, rfl⟩ : ∃ (p : Fin 512) (q : Fin 896), y = ix2 p q := ⟨y 0, y 1, eq_ix2 y⟩
    rw [View.readAt_eq_ld, View.readAt_eq_ld, harg1.read_unread, harg9.read_unread, View.ld_unit_zero (S := S896x896) hz,
      pay4_apply, slab_seg (by omega : 3200 + 896 ≤ 4096), slab_emb (by omega : 3200 + 896 ≤ 4096), blockDiag_apply]
    exact (pick_7 _ _ _ _ _ _ _ _ _ q rfl).symm
  · dsimp only
    intro y
    obtain ⟨p, q, rfl⟩ : ∃ (p : Fin 512) (q : Fin 896), y = ix2 p q := ⟨y 0, y 1, eq_ix2 y⟩
    rw [View.readAt_eq_ld, View.readAt_eq_ld, harg1.read_unread, harg8.read_unread, View.ld_unit_zero (S := S896x896) hz,
      pay3_apply, slab_seg (by omega : 2304 + 896 ≤ 4096), slab_emb (by omega : 2304 + 896 ≤ 4096), blockDiag_apply]
    exact (pick_6 _ _ _ _ _ _ _ _ _ q rfl).symm
  · dsimp only
    intro y
    obtain ⟨p, q, rfl⟩ : ∃ (p : Fin 512) (q : Fin 640), y = ix2 p q := ⟨y 0, y 1, eq_ix2 y⟩
    rw [View.readAt_eq_ld, View.readAt_eq_ld, harg1.read_unread, harg7.read_unread, View.ld_unit_zero (S := S640x640) hz,
      pay2_apply, slab_seg (by omega : 1664 + 640 ≤ 4096), slab_emb (by omega : 1664 + 640 ≤ 4096), blockDiag_apply]
    exact (pick_5 _ _ _ _ _ _ _ _ _ q rfl).symm
  · dsimp only
    intro y
    obtain ⟨p, q, rfl⟩ : ∃ (p : Fin 512) (q : Fin 640), y = ix2 p q := ⟨y 0, y 1, eq_ix2 y⟩
    rw [View.readAt_eq_ld, View.readAt_eq_ld, harg1.read_unread, harg6.read_unread, View.ld_unit_zero (S := S640x640) hz,
      pay1_apply, slab_seg (by omega : 1024 + 640 ≤ 4096), slab_emb (by omega : 1024 + 640 ≤ 4096), blockDiag_apply]
    exact (pick_4 _ _ _ _ _ _ _ _ _ q rfl).symm
  · dsimp only
    intro y
    obtain ⟨p, q, rfl⟩ : ∃ (p : Fin 512) (q : Fin 384), y = ix2 p q := ⟨y 0, y 1, eq_ix2 y⟩
    rw [View.readAt_eq_ld, View.readAt_eq_ld, harg1.read_unread, harg5.read_unread, View.ld_unit_zero (S := S384x384) hz,
      pay8_apply, slab_seg (by omega : 640 + 384 ≤ 4096), slab_emb (by omega : 640 + 384 ≤ 4096), blockDiag_apply]
    exact (pick_3 _ _ _ _ _ _ _ _ _ q rfl).symm
  · dsimp only
    intro y
    obtain ⟨p, q, rfl⟩ : ∃ (p : Fin 512) (q : Fin 384), y = ix2 p q := ⟨y 0, y 1, eq_ix2 y⟩
    rw [View.readAt_eq_ld, View.readAt_eq_ld, harg1.read_unread, harg4.read_unread, View.ld_unit_zero (S := S384x384) hz,
      pay7_apply, slab_seg (by omega : 256 + 384 ≤ 4096), slab_emb (by omega : 256 + 384 ≤ 4096), blockDiag_apply]
    exact (pick_2 _ _ _ _ _ _ _ _ _ q rfl).symm
  · dsimp only
    intro y
    obtain ⟨p, q, rfl⟩ : ∃ (p : Fin 512) (q : Fin 128), y = ix2 p q := ⟨y 0, y 1, eq_ix2 y⟩
    rw [View.readAt_eq_ld, View.readAt_eq_ld, harg1.read_unread, harg3.read_unread, View.ld_unit_zero (S := S128x128) hz,
      pay6_apply, slab_seg (by omega : 128 + 128 ≤ 4096), slab_emb (by omega : 128 + 128 ≤ 4096), blockDiag_apply]
    exact (pick_1 _ _ _ _ _ _ _ _ _ q rfl).symm
  · dsimp only
    intro y
    obtain ⟨p, q, rfl⟩ : ∃ (p : Fin 512) (q : Fin 128), y = ix2 p q := ⟨y 0, y 1, eq_ix2 y⟩
    rw [View.readAt_eq_ld, View.readAt_eq_ld, harg1.read_unread, harg2.read_unread, View.ld_unit_zero (S := S128x128) hz,
      pay5_apply, slab_seg (by omega : 0 + 128 ≤ 4096), slab_emb (by omega : 0 + 128 ≤ 4096), blockDiag_apply]
    exact (pick_0 _ _ _ _ _ _ _ _ _ q rfl).symm

end Cert.KernelIdeal.Block

end
-- ==== Proof.KernelValue.lean ====
/-
  The kernel's result array: the input times the block-diagonal matrix of the transposed weights.

  Before the grid runs, the program transposes each weight matrix and rounds it to the narrower format; on the
  extended reals the rounding is the identity, so the grid finds the plain transposes. Grid point t works on rows
  512 t .. 512 t + 511 of the input: its input block is those rows, every weight window is the whole transposed weight
  at every point, and it writes rows 512 t .. 512 t + 511 of the result. The block it leaves is the block-diagonal
  product of its 512 rows (`Block.out_eq`), and an entry of that product reads one input row only, so the block is those
  rows of the block-diagonal product of the whole input. The 64 blocks tile the 32768 rows, so the array after the run
  is that product everywhere.
-/
import proofs.«171077_j14791867368254_2_alg».proof.Proof.Gen.KernelIdeal.Value
import proofs.«171077_j14791867368254_2_alg».proof.Proof.KernelBlock
import proofs.«171077_j14791867368254_2_alg».proof.Proof.SliceLinear
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Cert.KernelIdeal Cert.KernelIdeal.Gen Cert.KernelIdeal.Value Cert.KernelIdeal.Block
open Idealize.ShloMosaic Idealize.ShloMosaic.TcCoe Idealize.ShloMosaic.ValueIdx Idealize.SL.Sem Cert.SliceLinear
open Idealize.ShloMosaic.Pipeline (Dat)

variable (m : (ℓ : Loc nD τ sig) → Buf (Elt Ideal) ℓ) (ρ : Dev nD → PrngReg)

/-! ## The weights as the grid finds them: transposed, the rounding the identity -/

theorem weight0 (c : Dev nD) : (V m c main_v1 : S128x128.Idx → EReal)
    = transpose S128x128 [1, 0] (m ((c : Thread nD τ).loc main_arg1)) Facts₀.transposes_S128x128_S128x128_1_0 := by
  dsimp only [V, hostOps0]; after_results; rfl

theorem weight1 (c : Dev nD) : (V m c main_v3 : S128x128.Idx → EReal)
    = transpose S128x128 [1, 0] (m ((c : Thread nD τ).loc main_arg2)) Facts₀.transposes_S128x128_S128x128_1_0 := by
  dsimp only [V, hostOps0]; after_results; rfl

theorem weight2 (c : Dev nD) : (V m c main_v5 : S384x384.Idx → EReal)
    = transpose S384x384 [1, 0] (m ((c : Thread nD τ).loc main_arg3)) Facts₀.transposes_S384x384_S384x384_1_0 := by
  dsimp only [V, hostOps0]; after_results; rfl

theorem weight3 (c : Dev nD) : (V m c main_v7 : S384x384.Idx → EReal)
    = transpose S384x384 [1, 0] (m ((c : Thread nD τ).loc main_arg4)) Facts₀.transposes_S384x384_S384x384_1_0 := by
  dsimp only [V, hostOps0]; after_results; rfl

theorem weight4 (c : Dev nD) : (V m c main_v9 : S640x640.Idx → EReal)
    = transpose S640x640 [1, 0] (m ((c : Thread nD τ).loc main_arg5)) Facts₀.transposes_S640x640_S640x640_1_0 := by
  dsimp only [V, hostOps0]; after_results; rfl

theorem weight5 (c : Dev nD) : (V m c main_v11 : S640x640.Idx → EReal)
    = transpose S640x640 [1, 0] (m ((c : Thread nD τ).loc main_arg6)) Facts₀.transposes_S640x640_S640x640_1_0 := by
  dsimp only [V, hostOps0]; after_results; rfl

theorem weight6 (c : Dev nD) : (V m c main_v13 : S896x896.Idx → EReal)
    = transpose S896x896 [1, 0] (m ((c : Thread nD τ).loc main_arg7)) Facts₀.transposes_S896x896_S896x896_1_0 := by
  dsimp only [V, hostOps0]; after_results; rfl

theorem weight7 (c : Dev nD) : (V m c main_v15 : S896x896.Idx → EReal)
    = transpose S896x896 [1, 0] (m ((c : Thread nD τ).loc main_arg8)) Facts₀.transposes_S896x896_S896x896_1_0 := by
  dsimp only [V, hostOps0]; after_results; rfl

/-! ## Where the blocks sit -/

/-- The printed index maps over the 64 grid points: the input and the output move down one block of rows per point
    and never sideways; every weight window stays at its whole array. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem t_lt (t : Fin cfg0.N) : t.val < 64 := by
  have h : t.val < cfg0.N := t.isLt
  have hN : cfg0.N = 64 := N_0
  omega

/-- The input block at point t is rows 512 t .. 512 t + 511 of the input as the grid finds it. -/
theorem input_block (c : Dev nD) (t : Fin cfg0.N) (p : Fin 512) (col : Fin 4096) :
    (iblk m c 0 t : Vec Ideal S512x4096 .f32) (ix2 p col)
      = (V m c main_arg0 : S32768x4096.Idx → EReal) (ix2 (⟨512 * t.val + p.val, by have := t_lt t; have := p.isLt; omega⟩ : Fin 32768) col) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 4096 + 1 * col.val = col.val; rw [e1]; omega

/-- Weight window 0's block at every point is its whole array. -/
theorem weight_block0 (c : Dev nD) (t : Fin cfg0.N) :
    (iblk m c 1 t : Vec Ideal S128x128 .bf16) = (V m c main_v1 : S128x128.Idx → EReal) := by
  obtain ⟨-, -, -, -, e0, e1, -⟩ := idx_facts t
  funext y
  unfold iblk
  rw [View.read_apply]
  show V m c main_v1 _ = V m c main_v1 _
  refine congrArg (V m c main_v1) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Weight window 1's block at every point is its whole array. -/
theorem weight_block1 (c : Dev nD) (t : Fin cfg0.N) :
    (iblk m c 2 t : Vec Ideal S128x128 .bf16) = (V m c main_v3 : S128x128.Idx → EReal) := by
  obtain ⟨-, -, -, -, -, -, e0, e1, -⟩ := idx_facts t
  funext y
  unfold iblk
  rw [View.read_apply]
  show V m c main_v3 _ = V m c main_v3 _
  refine congrArg (V m c main_v3) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Weight window 2's block at every point is its whole array. -/
theorem weight_block2 (c : Dev nD) (t : Fin cfg0.N) :
    (iblk m c 3 t : Vec Ideal S384x384 .bf16) = (V m c main_v5 : S384x384.Idx → EReal) := by
  obtain ⟨-, -, -, -, -, -, -, -, e0, e1, -⟩ := idx_facts t
  funext y
  unfold iblk
  rw [View.read_apply]
  show V m c main_v5 _ = V m c main_v5 _
  refine congrArg (V m c main_v5) (funext fun a => Fin.ext ?_)
  match a with
  | ⟨0, _⟩ => show win0_3.index t (0 : Fin 2) * 384 + 1 * (y 0).val = (y 0).val; rw [e0]; omega
  | ⟨1, _⟩ => show win0_3.index t (1 : Fin 2) * 384 + 1 * (y 1).val = (y 1).val; rw [e1]; omega

/-- Weight window 3's block at every point is its whole array. -/
theorem weight_block3 (c : Dev nD) (t : Fin cfg0.N) :
    (iblk m c 4 t : Vec Ideal S384x384 .bf16) = (V m c main_v7 : S384x384.Idx → EReal) := by
  obtain ⟨-, -, -, -, -, -, -, -, -, -, e0, e1, -⟩ := idx_facts t
  funext y
  unfold iblk
  rw [View.read_apply]
  show V m c main_v7 _ = V m c main_v7 _
  refine congrArg (V m c main_v7) (funext fun a => Fin.ext ?_)
  match a with
  | ⟨0, _⟩ => show win0_4.index t (0 : Fin 2) * 384 + 1 * (y 0).val = (y 0).val; rw [e0]; omega
  | ⟨1, _⟩ => show win0_4.index t (1 : Fin 2) * 384 + 1 * (y 1).val = (y 1).val; rw [e1]; omega

/-- Weight window 4's block at every point is its whole array. -/
theorem weight_block4 (c : Dev nD) (t : Fin cfg0.N) :
    (iblk m c 5 t : Vec Ideal S640x640 .bf16) = (V m c main_v9 : S640x640.Idx → EReal) := by
  obtain ⟨-, -, -, -, -, -, -, -, -, -, -, -, e0, e1, -⟩ := idx_facts t
  funext y
  unfold iblk
  rw [View.read_apply]
  show V m c main_v9 _ = V m c main_v9 _
  refine congrArg (V m c main_v9) (funext fun a => Fin.ext ?_)
  match a with
  | ⟨0, _⟩ => show win0_5.index t (0 : Fin 2) * 640 + 1 * (y 0).val = (y 0).val; rw [e0]; omega
  | ⟨1, _⟩ => show win0_5.index t (1 : Fin 2) * 640 + 1 * (y 1).val = (y 1).val; rw [e1]; omega

/-- Weight window 5's block at every point is its whole array. -/
theorem weight_block5 (c : Dev nD) (t : Fin cfg0.N) :
    (iblk m c 6 t : Vec Ideal S640x640 .bf16) = (V m c main_v11 : S640x640.Idx → EReal) := by
  obtain ⟨-, -, -, -, -, -, -, -, -, -, -, -, -, -, e0, e1, -⟩ := idx_facts t
  funext y
  unfold iblk
  rw [View.read_apply]
  show V m c main_v11 _ = V m c main_v11 _
  refine congrArg (V m c main_v11) (funext fun a => Fin.ext ?_)
  match a with
  | ⟨0, _⟩ => show win0_6.index t (0 : Fin 2) * 640 + 1 * (y 0).val = (y 0).val; rw [e0]; omega
  | ⟨1, _⟩ => show win0_6.index t (1 : Fin 2) * 640 + 1 * (y 1).val = (y 1).val; rw [e1]; omega

/-- Weight window 6's block at every point is its whole array. -/
theorem weight_block6 (c : Dev nD) (t : Fin cfg0.N) :
    (iblk m c 7 t : Vec Ideal S896x896 .bf16) = (V m c main_v13 : S896x896.Idx → EReal) := by
  obtain ⟨-, -, -, -, -, -, -, -, -, -, -, -, -, -, -, -, e0, e1, -⟩ := idx_facts t
  funext y
  unfold iblk
  rw [View.read_apply]
  show V m c main_v13 _ = V m c main_v13 _
  refine congrArg (V m c main_v13) (funext fun a => Fin.ext ?_)
  match a with
  | ⟨0, _⟩ => show win0_7.index t (0 : Fin 2) * 896 + 1 * (y 0).val = (y 0).val; rw [e0]; omega
  | ⟨1, _⟩ => show win0_7.index t (1 : Fin 2) * 896 + 1 * (y 1).val = (y 1).val; rw [e1]; omega

/-- Weight window 7's block at every point is its whole array. -/
theorem weight_block7 (c : Dev nD) (t : Fin cfg0.N) :
    (iblk m c 8 t : Vec Ideal S896x896 .bf16) = (V m c main_v15 : S896x896.Idx → EReal) := by
  obtain ⟨-, -, -, -, -, -, -, -, -, -, -, -, -, -, -, -, -, -, e0, e1⟩ := idx_facts t
  funext y
  unfold iblk
  rw [View.read_apply]
  show V m c main_v15 _ = V m c main_v15 _
  refine congrArg (V m c main_v15) (funext fun a => Fin.ext ?_)
  match a with
  | ⟨0, _⟩ => show win0_8.index t (0 : Fin 2) * 896 + 1 * (y 0).val = (y 0).val; rw [e0]; omega
  | ⟨1, _⟩ => show win0_8.index t (1 : Fin 2) * 896 + 1 * (y 1).val = (y 1).val; rw [e1]; omega

/-! ## What each point writes back, and the array after the run -/

/-- The result: the input times the block-diagonal matrix of the transposed weights. -/
abbrev result (c : Dev nD) : S32768x4096.Idx → EReal :=
  blockDiag 32768 (m ((c : Thread nD τ).loc main_arg0))
    (transpose S128x128 [1, 0] (m ((c : Thread nD τ).loc main_arg1)) Facts₀.transposes_S128x128_S128x128_1_0)
    (transpose S128x128 [1, 0] (m ((c : Thread nD τ).loc main_arg2)) Facts₀.transposes_S128x128_S128x128_1_0)
    (transpose S384x384 [1, 0] (m ((c : Thread nD τ).loc main_arg3)) Facts₀.transposes_S384x384_S384x384_1_0)
    (transpose S384x384 [1, 0] (m ((c : Thread nD τ).loc main_arg4)) Facts₀.transposes_S384x384_S384x384_1_0)
    (transpose S640x640 [1, 0] (m ((c : Thread nD τ).loc main_arg5)) Facts₀.transposes_S640x640_S640x640_1_0)
    (transpose S640x640 [1, 0] (m ((c : Thread nD τ).loc main_arg6)) Facts₀.transposes_S640x640_S640x640_1_0)
    (transpose S896x896 [1, 0] (m ((c : Thread nD τ).loc main_arg7)) Facts₀.transposes_S896x896_S896x896_1_0)
    (transpose S896x896 [1, 0] (m ((c : Thread nD τ).loc main_arg8)) Facts₀.transposes_S896x896_S896x896_1_0)

/-- Point t writes back rows 512 t .. 512 t + 511 of the result. -/
theorem flushed_eq (c : Dev nD) (t : Fin cfg0.N) :
    (dats m 0 c).flushed 9 t = ((cfg0.win 9).blk t).view.read (Elt Ideal) (result m c) := by
  obtain ⟨-, -, e0, e1, -⟩ := idx_facts t
  show (cfg0.win 9).cut (grid0.coords t) ((dats m 0 c).after 9 t) = _
  rw [after0_9]
  unfold outsAt0
  rw [out_eq, weight_block0, weight_block1, weight_block2, weight_block3, weight_block4, weight_block5, weight_block6,
    weight_block7, weight0, weight1, weight2, weight3, weight4, weight5, weight6, weight7]
  funext y
  obtain ⟨p, col, rfl⟩ : ∃ (p : Fin 512) (col : Fin 4096), y = ix2 p col := ⟨y 0, y 1, eq_ix2 y⟩
  rw [View.read_apply]
  have hrow : 512 * t.val + p.val < 32768 := by have := t_lt t; have := p.isLt; omega
  have hemb : ((cfg0.win 9).blk t).view.emb (ix2 p col) = (ix2 (⟨512 * t.val + p.val, hrow⟩ : Fin 32768) col : S32768x4096.Idx) := by
    funext a
    apply Fin.ext
    match a with
    | ⟨0, _⟩ => show win0_9.index t (0 : Fin 2) * 512 + 1 * p.val = 512 * t.val + p.val; rw [e0]; omega
    | ⟨1, _⟩ => show win0_9.index t (1 : Fin 2) * 4096 + 1 * col.val = col.val; rw [e1]; omega
  show blockDiag 512 (iblk m c 0 t) _ _ _ _ _ _ _ _ (ix2 p col) = result m c (((cfg0.win 9).blk t).view.emb (ix2 p col))
  rw [hemb]
  unfold result
  rw [← V_main_arg0 m c]
  exact blockDiag_row _ _ _ _ _ _ _ _ _ _ p ⟨512 * t.val + p.val, hrow⟩ (fun col' => input_block m c t p col') col

/-- Every row of the result lies in the block of the point that works on it. -/
theorem cover (c : Dev nD) (i : S32768x4096.Idx) :
    ∃ t : Fin cfg0.N, (cfg0.win 9).flush t = true ∧ i ∈ ((cfg0.win 9).blk t).view.set := by
  have hN : cfg0.N = 64 := N_0
  have hi0 : (i 0).val < 32768 := (i 0).isLt
  have hi1 : (i 1).val < 4096 := (i 1).isLt
  let t : Fin cfg0.N := ⟨(i 0).val / 512, by rw [hN]; omega⟩
  obtain ⟨-, -, e0, e1, -⟩ := idx_facts t
  have ht : t.val = (i 0).val / 512 := rfl
  refine ⟨t, flush0_9 t, ?_⟩
  show i ∈ ((View.whole main_v16).slice (win0_9.rect t)).set
  rw [View.set_slice_whole, Rect.mem_set_unit]
  intro a
  match a with
  | ⟨0, _⟩ =>
    show win0_9.index t (0 : Fin 2) * 512 ≤ (i 0).val ∧ (i 0).val < win0_9.index t (0 : Fin 2) * 512 + 512
    rw [e0, ht]; omega
  | ⟨1, _⟩ =>
    show win0_9.index t (1 : Fin 2) * 4096 ≤ (i 1).val ∧ (i 1).val < win0_9.index t (1 : Fin 2) * 4096 + 4096
    rw [e1]; omega

/-- The result array after the run. -/
theorem final (c : Dev nD) : (dats m 0 c).arrAt 9 cfg0.N = result m c :=
  (dats m 0 c).arrAt_eq_of_cover 9 (result m c) (fun t _ => flushed_eq m c t) (cover c)

/-- The kernel's run, read: the result array is the block-diagonal product, the arguments are as launched. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.ArrayValue

end
-- ==== Proof.ReferenceValue.lean ====
/-
  The reference's result is the input times the block-diagonal matrix of the transposed weights.

  The reference slices the input's columns into the eight segments, multiplies each slice by the transpose of that
  segment's weight matrix, and joins the eight products along the columns. On the extended reals a product of a
  32768 x w slice with a w x w matrix is, at (r, q), the sum over k of slice (r, k) * matrix (k, q), and the slice that
  starts at column s holds x (r, s + k) at (r, k): so segment l of row r of the joined array is
  `SliceLinear.seg` of the input and of the transposed weight, and the joined array is `SliceLinear.blockDiag`.
  The transposed weights are never opened: the kernel's program transposes the same arrays the same way.
-/
import proofs.«171077_j14791867368254_2_alg».proof.Proof.Gen.ReferenceIdeal.Read
import proofs.«171077_j14791867368254_2_alg».proof.Proof.LibInnerProducts
import proofs.«171077_j14791867368254_2_alg».proof.Proof.SliceLinear

noncomputable section

namespace Cert.ReferenceIdeal.RefValue

open Cert.ReferenceIdeal Cert.ReferenceIdeal.Gen Cert.ReferenceIdeal.Read Idealize.ShloMosaic Idealize.ShloMosaic.ValueIdx
open Cert.SliceLinear
open scoped BigOperators

/-! ## One slice's product -/

/-- The product of the slice that starts at column 0 with the transposed weight 0: one segment's product. -/
theorem dot0_apply (x0 : (⟨S32768x4096, .f32⟩ : BufTy).Contents (Elt Ideal)) (x1 : (⟨S128x128, .f32⟩ : BufTy).Contents (Elt Ideal)) (r : Fin 32768) (q : Fin 128) :
    val_main_v2 (F := Ideal) x0 x1 (ix2 r q)
      = seg 32768 128 0 (by omega) x0 (val_main_v1 (F := Ideal) x1) r q := by
  unfold val_main_v2
  refine (InnerProducts.dotGeneral_apply dot_S32768x128_S128x128_S32768x128_1_0_0_1_n_n rfl none _ _ r q).trans ?_
  unfold seg
  refine Finset.sum_congr rfl fun k _ => ?_
  rw [val_main_v0_apply]
  refine congrArg (fun z => x0 z * _) (funext fun a => Fin.ext ?_)
  match a with
  | ⟨0, _⟩ => rfl
  | ⟨1, _⟩ => show k.val = 0 + k.val; omega

/-- The product of the slice that starts at column 128 with the transposed weight 1: one segment's product. -/
theorem dot1_apply (x0 : (⟨S32768x4096, .f32⟩ : BufTy).Contents (Elt Ideal)) (x2 : (⟨S128x128, .f32⟩ : BufTy).Contents (Elt Ideal)) (r : Fin 32768) (q : Fin 128) :
    val_main_v5 (F := Ideal) x0 x2 (ix2 r q)
      = seg 32768 128 128 (by omega) x0 (val_main_v4 (F := Ideal) x2) r q := by
  unfold val_main_v5
  refine (InnerProducts.dotGeneral_apply dot_S32768x128_S128x128_S32768x128_1_0_0_1_n_n rfl none _ _ r q).trans ?_
  unfold seg
  refine Finset.sum_congr rfl fun k _ => ?_
  rw [val_main_v3_apply]
  refine congrArg (fun z => x0 z * _) (funext fun a => Fin.ext ?_)
  match a with
  | ⟨0, _⟩ => rfl
  | ⟨1, _⟩ => rfl

/-- The product of the slice that starts at column 256 with the transposed weight 2: one segment's product. -/
theorem dot2_apply (x0 : (⟨S32768x4096, .f32⟩ : BufTy).Contents (Elt Ideal)) (x3 : (⟨S384x384, .f32⟩ : BufTy).Contents (Elt Ideal)) (r : Fin 32768) (q : Fin 384) :
    val_main_v8 (F := Ideal) x0 x3 (ix2 r q)
      = seg 32768 384 256 (by omega) x0 (val_main_v7 (F := Ideal) x3) r q := by
  unfold val_main_v8
  refine (InnerProducts.dotGeneral_apply dot_S32768x384_S384x384_S32768x384_1_0_0_1_n_n rfl none _ _ r q).trans ?_
  unfold seg
  refine Finset.sum_congr rfl fun k _ => ?_
  rw [val_main_v6_apply]
  refine congrArg (fun z => x0 z * _) (funext fun a => Fin.ext ?_)
  match a with
  | ⟨0, _⟩ => rfl
  | ⟨1, _⟩ => rfl

/-- The product of the slice that starts at column 640 with the transposed weight 3: one segment's product. -/
theorem dot3_apply (x0 : (⟨S32768x4096, .f32⟩ : BufTy).Contents (Elt Ideal)) (x4 : (⟨S384x384, .f32⟩ : BufTy).Contents (Elt Ideal)) (r : Fin 32768) (q : Fin 384) :
    val_main_v11 (F := Ideal) x0 x4 (ix2 r q)
      = seg 32768 384 640 (by omega) x0 (val_main_v10 (F := Ideal) x4) r q := by
  unfold val_main_v11
  refine (InnerProducts.dotGeneral_apply dot_S32768x384_S384x384_S32768x384_1_0_0_1_n_n rfl none _ _ r q).trans ?_
  unfold seg
  refine Finset.sum_congr rfl fun k _ => ?_
  rw [val_main_v9_apply]
  refine congrArg (fun z => x0 z * _) (funext fun a => Fin.ext ?_)
  match a with
  | ⟨0, _⟩ => rfl
  | ⟨1, _⟩ => rfl

/-- The product of the slice that starts at column 1024 with the transposed weight 4: one segment's product. -/
theorem dot4_apply (x0 : (⟨S32768x4096, .f32⟩ : BufTy).Contents (Elt Ideal)) (x5 : (⟨S640x640, .f32⟩ : BufTy).Contents (Elt Ideal)) (r : Fin 32768) (q : Fin 640) :
    val_main_v14 (F := Ideal) x0 x5 (ix2 r q)
      = seg 32768 640 1024 (by omega) x0 (val_main_v13 (F := Ideal) x5) r q := by
  unfold val_main_v14
  refine (InnerProducts.dotGeneral_apply dot_S32768x640_S640x640_S32768x640_1_0_0_1_n_n rfl none _ _ r q).trans ?_
  unfold seg
  refine Finset.sum_congr rfl fun k _ => ?_
  rw [val_main_v12_apply]
  refine congrArg (fun z => x0 z * _) (funext fun a => Fin.ext ?_)
  match a with
  | ⟨0, _⟩ => rfl
  | ⟨1, _⟩ => rfl

/-- The product of the slice that starts at column 1664 with the transposed weight 5: one segment's product. -/
theorem dot5_apply (x0 : (⟨S32768x4096, .f32⟩ : BufTy).Contents (Elt Ideal)) (x6 : (⟨S640x640, .f32⟩ : BufTy).Contents (Elt Ideal)) (r : Fin 32768) (q : Fin 640) :
    val_main_v17 (F := Ideal) x0 x6 (ix2 r q)
      = seg 32768 640 1664 (by omega) x0 (val_main_v16 (F := Ideal) x6) r q := by
  unfold val_main_v17
  refine (InnerProducts.dotGeneral_apply dot_S32768x640_S640x640_S32768x640_1_0_0_1_n_n rfl none _ _ r q).trans ?_
  unfold seg
  refine Finset.sum_congr rfl fun k _ => ?_
  rw [val_main_v15_apply]
  refine congrArg (fun z => x0 z * _) (funext fun a => Fin.ext ?_)
  match a with
  | ⟨0, _⟩ => rfl
  | ⟨1, _⟩ => rfl

/-- The product of the slice that starts at column 2304 with the transposed weight 6: one segment's product. -/
theorem dot6_apply (x0 : (⟨S32768x4096, .f32⟩ : BufTy).Contents (Elt Ideal)) (x7 : (⟨S896x896, .f32⟩ : BufTy).Contents (Elt Ideal)) (r : Fin 32768) (q : Fin 896) :
    val_main_v20 (F := Ideal) x0 x7 (ix2 r q)
      = seg 32768 896 2304 (by omega) x0 (val_main_v19 (F := Ideal) x7) r q := by
  unfold val_main_v20
  refine (InnerProducts.dotGeneral_apply dot_S32768x896_S896x896_S32768x896_1_0_0_1_n_n rfl none _ _ r q).trans ?_
  unfold seg
  refine Finset.sum_congr rfl fun k _ => ?_
  rw [val_main_v18_apply]
  refine congrArg (fun z => x0 z * _) (funext fun a => Fin.ext ?_)
  match a with
  | ⟨0, _⟩ => rfl
  | ⟨1, _⟩ => rfl

/-- The product of the slice that starts at column 3200 with the transposed weight 7: one segment's product. -/
theorem dot7_apply (x0 : (⟨S32768x4096, .f32⟩ : BufTy).Contents (Elt Ideal)) (x8 : (⟨S896x896, .f32⟩ : BufTy).Contents (Elt Ideal)) (r : Fin 32768) (q : Fin 896) :
    val_main_v23 (F := Ideal) x0 x8 (ix2 r q)
      = seg 32768 896 3200 (by omega) x0 (val_main_v22 (F := Ideal) x8) r q := by
  unfold val_main_v23
  refine (InnerProducts.dotGeneral_apply dot_S32768x896_S896x896_S32768x896_1_0_0_1_n_n rfl none _ _ r q).trans ?_
  unfold seg
  refine Finset.sum_congr rfl fun k _ => ?_
  rw [val_main_v21_apply]
  refine congrArg (fun z => x0 z * _) (funext fun a => Fin.ext ?_)
  match a with
  | ⟨0, _⟩ => rfl
  | ⟨1, _⟩ => rfl

/-! ## The joined array, segment by segment -/

/-- The eight products, in the order they are joined along the columns. -/
abbrev pieces (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) : List ((s : Shape) × (s.Idx → EReal)) :=
  [⟨S32768x128, val_main_v2 (F := Ideal) x0 x1⟩, ⟨S32768x128, val_main_v5 (F := Ideal) x0 x2⟩,
   ⟨S32768x384, val_main_v8 (F := Ideal) x0 x3⟩, ⟨S32768x384, val_main_v11 (F := Ideal) x0 x4⟩,
   ⟨S32768x640, val_main_v14 (F := Ideal) x0 x5⟩, ⟨S32768x640, val_main_v17 (F := Ideal) x0 x6⟩,
   ⟨S32768x896, val_main_v20 (F := Ideal) x0 x7⟩, ⟨S32768x896, val_main_v23 (F := Ideal) x0 x8⟩]

/-- Columns 0 to 127 of the joined array are piece 0: the extents of the pieces before it add up to 0. -/
theorem joined0 (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) (r : Fin 32768) (col : Fin 4096) (q : Fin 128) (h : col.val = 0 + q.val) :
    val_main_v24 (F := Ideal) x0 x1 x2 x3 x4 x5 x6 x7 x8 (ix2 r col)
      = seg 32768 128 0 (by omega) x0 (val_main_v1 (F := Ideal) x1) r q := by
  show concatenate S32768x4096 1 (pieces x0 x1 x2 x3 x4 x5 x6 x7 x8) concatenates_S32768x128_S32768x128_S32768x384_S32768x384_S32768x640_S32768x640_S32768x896_S32768x896_S32768x4096_d1 (ix2 r col) = _
  refine (concatenate_apply_piece (t := S32768x4096) 1 (pieces x0 x1 x2 x3 x4 x5 x6 x7 x8) concatenates_S32768x128_S32768x128_S32768x384_S32768x384_S32768x640_S32768x640_S32768x896_S32768x896_S32768x4096_d1 (ix2 r col) 0
    (by show 0 < 8; omega) S32768x128 (val_main_v2 (F := Ideal) x0 x1) rfl rfl 0 rfl (ix2 r q)
    (fun b hb => by
      match b with
      | ⟨0, _⟩ => rfl
      | ⟨1, _⟩ => exact absurd rfl hb)
    (by show 0 + q.val = col.val; omega)).trans ?_
  exact dot0_apply x0 x1 r q

/-- Columns 128 to 255 of the joined array are piece 1: the extents of the pieces before it add up to 128. -/
theorem joined1 (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) (r : Fin 32768) (col : Fin 4096) (q : Fin 128) (h : col.val = 128 + q.val) :
    val_main_v24 (F := Ideal) x0 x1 x2 x3 x4 x5 x6 x7 x8 (ix2 r col)
      = seg 32768 128 128 (by omega) x0 (val_main_v4 (F := Ideal) x2) r q := by
  show concatenate S32768x4096 1 (pieces x0 x1 x2 x3 x4 x5 x6 x7 x8) concatenates_S32768x128_S32768x128_S32768x384_S32768x384_S32768x640_S32768x640_S32768x896_S32768x896_S32768x4096_d1 (ix2 r col) = _
  refine (concatenate_apply_piece (t := S32768x4096) 1 (pieces x0 x1 x2 x3 x4 x5 x6 x7 x8) concatenates_S32768x128_S32768x128_S32768x384_S32768x384_S32768x640_S32768x640_S32768x896_S32768x896_S32768x4096_d1 (ix2 r col) 1
    (by show 1 < 8; omega) S32768x128 (val_main_v5 (F := Ideal) x0 x2) rfl rfl 128 rfl (ix2 r q)
    (fun b hb => by
      match b with
      | ⟨0, _⟩ => rfl
      | ⟨1, _⟩ => exact absurd rfl hb)
    (by show 128 + q.val = col.val; omega)).trans ?_
  exact dot1_apply x0 x2 r q

/-- Columns 256 to 639 of the joined array are piece 2: the extents of the pieces before it add up to 256. -/
theorem joined2 (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) (r : Fin 32768) (col : Fin 4096) (q : Fin 384) (h : col.val = 256 + q.val) :
    val_main_v24 (F := Ideal) x0 x1 x2 x3 x4 x5 x6 x7 x8 (ix2 r col)
      = seg 32768 384 256 (by omega) x0 (val_main_v7 (F := Ideal) x3) r q := by
  show concatenate S32768x4096 1 (pieces x0 x1 x2 x3 x4 x5 x6 x7 x8) concatenates_S32768x128_S32768x128_S32768x384_S32768x384_S32768x640_S32768x640_S32768x896_S32768x896_S32768x4096_d1 (ix2 r col) = _
  refine (concatenate_apply_piece (t := S32768x4096) 1 (pieces x0 x1 x2 x3 x4 x5 x6 x7 x8) concatenates_S32768x128_S32768x128_S32768x384_S32768x384_S32768x640_S32768x640_S32768x896_S32768x896_S32768x4096_d1 (ix2 r col) 2
    (by show 2 < 8; omega) S32768x384 (val_main_v8 (F := Ideal) x0 x3) rfl rfl 256 rfl (ix2 r q)
    (fun b hb => by
      match b with
      | ⟨0, _⟩ => rfl
      | ⟨1, _⟩ => exact absurd rfl hb)
    (by show 256 + q.val = col.val; omega)).trans ?_
  exact dot2_apply x0 x3 r q

/-- Columns 640 to 1023 of the joined array are piece 3: the extents of the pieces before it add up to 640. -/
theorem joined3 (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) (r : Fin 32768) (col : Fin 4096) (q : Fin 384) (h : col.val = 640 + q.val) :
    val_main_v24 (F := Ideal) x0 x1 x2 x3 x4 x5 x6 x7 x8 (ix2 r col)
      = seg 32768 384 640 (by omega) x0 (val_main_v10 (F := Ideal) x4) r q := by
  show concatenate S32768x4096 1 (pieces x0 x1 x2 x3 x4 x5 x6 x7 x8) concatenates_S32768x128_S32768x128_S32768x384_S32768x384_S32768x640_S32768x640_S32768x896_S32768x896_S32768x4096_d1 (ix2 r col) = _
  refine (concatenate_apply_piece (t := S32768x4096) 1 (pieces x0 x1 x2 x3 x4 x5 x6 x7 x8) concatenates_S32768x128_S32768x128_S32768x384_S32768x384_S32768x640_S32768x640_S32768x896_S32768x896_S32768x4096_d1 (ix2 r col) 3
    (by show 3 < 8; omega) S32768x384 (val_main_v11 (F := Ideal) x0 x4) rfl rfl 640 rfl (ix2 r q)
    (fun b hb => by
      match b with
      | ⟨0, _⟩ => rfl
      | ⟨1, _⟩ => exact absurd rfl hb)
    (by show 640 + q.val = col.val; omega)).trans ?_
  exact dot3_apply x0 x4 r q

/-- Columns 1024 to 1663 of the joined array are piece 4: the extents of the pieces before it add up to 1024. -/
theorem joined4 (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) (r : Fin 32768) (col : Fin 4096) (q : Fin 640) (h : col.val = 1024 + q.val) :
    val_main_v24 (F := Ideal) x0 x1 x2 x3 x4 x5 x6 x7 x8 (ix2 r col)
      = seg 32768 640 1024 (by omega) x0 (val_main_v13 (F := Ideal) x5) r q := by
  show concatenate S32768x4096 1 (pieces x0 x1 x2 x3 x4 x5 x6 x7 x8) concatenates_S32768x128_S32768x128_S32768x384_S32768x384_S32768x640_S32768x640_S32768x896_S32768x896_S32768x4096_d1 (ix2 r col) = _
  refine (concatenate_apply_piece (t := S32768x4096) 1 (pieces x0 x1 x2 x3 x4 x5 x6 x7 x8) concatenates_S32768x128_S32768x128_S32768x384_S32768x384_S32768x640_S32768x640_S32768x896_S32768x896_S32768x4096_d1 (ix2 r col) 4
    (by show 4 < 8; omega) S32768x640 (val_main_v14 (F := Ideal) x0 x5) rfl rfl 1024 rfl (ix2 r q)
    (fun b hb => by
      match b with
      | ⟨0, _⟩ => rfl
      | ⟨1, _⟩ => exact absurd rfl hb)
    (by show 1024 + q.val = col.val; omega)).trans ?_
  exact dot4_apply x0 x5 r q

/-- Columns 1664 to 2303 of the joined array are piece 5: the extents of the pieces before it add up to 1664. -/
theorem joined5 (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) (r : Fin 32768) (col : Fin 4096) (q : Fin 640) (h : col.val = 1664 + q.val) :
    val_main_v24 (F := Ideal) x0 x1 x2 x3 x4 x5 x6 x7 x8 (ix2 r col)
      = seg 32768 640 1664 (by omega) x0 (val_main_v16 (F := Ideal) x6) r q := by
  show concatenate S32768x4096 1 (pieces x0 x1 x2 x3 x4 x5 x6 x7 x8) concatenates_S32768x128_S32768x128_S32768x384_S32768x384_S32768x640_S32768x640_S32768x896_S32768x896_S32768x4096_d1 (ix2 r col) = _
  refine (concatenate_apply_piece (t := S32768x4096) 1 (pieces x0 x1 x2 x3 x4 x5 x6 x7 x8) concatenates_S32768x128_S32768x128_S32768x384_S32768x384_S32768x640_S32768x640_S32768x896_S32768x896_S32768x4096_d1 (ix2 r col) 5
    (by show 5 < 8; omega) S32768x640 (val_main_v17 (F := Ideal) x0 x6) rfl rfl 1664 rfl (ix2 r q)
    (fun b hb => by
      match b with
      | ⟨0, _⟩ => rfl
      | ⟨1, _⟩ => exact absurd rfl hb)
    (by show 1664 + q.val = col.val; omega)).trans ?_
  exact dot5_apply x0 x6 r q

/-- Columns 2304 to 3199 of the joined array are piece 6: the extents of the pieces before it add up to 2304. -/
theorem joined6 (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) (r : Fin 32768) (col : Fin 4096) (q : Fin 896) (h : col.val = 2304 + q.val) :
    val_main_v24 (F := Ideal) x0 x1 x2 x3 x4 x5 x6 x7 x8 (ix2 r col)
      = seg 32768 896 2304 (by omega) x0 (val_main_v19 (F := Ideal) x7) r q := by
  show concatenate S32768x4096 1 (pieces x0 x1 x2 x3 x4 x5 x6 x7 x8) concatenates_S32768x128_S32768x128_S32768x384_S32768x384_S32768x640_S32768x640_S32768x896_S32768x896_S32768x4096_d1 (ix2 r col) = _
  refine (concatenate_apply_piece (t := S32768x4096) 1 (pieces x0 x1 x2 x3 x4 x5 x6 x7 x8) concatenates_S32768x128_S32768x128_S32768x384_S32768x384_S32768x640_S32768x640_S32768x896_S32768x896_S32768x4096_d1 (ix2 r col) 6
    (by show 6 < 8; omega) S32768x896 (val_main_v20 (F := Ideal) x0 x7) rfl rfl 2304 rfl (ix2 r q)
    (fun b hb => by
      match b with
      | ⟨0, _⟩ => rfl
      | ⟨1, _⟩ => exact absurd rfl hb)
    (by show 2304 + q.val = col.val; omega)).trans ?_
  exact dot6_apply x0 x7 r q

/-- Columns 3200 to 4095 of the joined array are piece 7: the extents of the pieces before it add up to 3200. -/
theorem joined7 (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) (r : Fin 32768) (col : Fin 4096) (q : Fin 896) (h : col.val = 3200 + q.val) :
    val_main_v24 (F := Ideal) x0 x1 x2 x3 x4 x5 x6 x7 x8 (ix2 r col)
      = seg 32768 896 3200 (by omega) x0 (val_main_v22 (F := Ideal) x8) r q := by
  show concatenate S32768x4096 1 (pieces x0 x1 x2 x3 x4 x5 x6 x7 x8) concatenates_S32768x128_S32768x128_S32768x384_S32768x384_S32768x640_S32768x640_S32768x896_S32768x896_S32768x4096_d1 (ix2 r col) = _
  refine (concatenate_apply_piece (t := S32768x4096) 1 (pieces x0 x1 x2 x3 x4 x5 x6 x7 x8) concatenates_S32768x128_S32768x128_S32768x384_S32768x384_S32768x640_S32768x640_S32768x896_S32768x896_S32768x4096_d1 (ix2 r col) 7
    (by show 7 < 8; omega) S32768x896 (val_main_v23 (F := Ideal) x0 x8) rfl rfl 3200 rfl (ix2 r q)
    (fun b hb => by
      match b with
      | ⟨0, _⟩ => rfl
      | ⟨1, _⟩ => exact absurd rfl hb)
    (by show 3200 + q.val = col.val; omega)).trans ?_
  exact dot7_apply x0 x8 r q

/-! ## The whole result -/

/-- The reference's result array: the input times the block-diagonal matrix whose diagonal blocks are the transposed
    weights. -/
theorem result_eq (x0 : (⟨S32768x4096, .f32⟩ : BufTy).Contents (Elt Ideal)) (x1 x2 : (⟨S128x128, .f32⟩ : BufTy).Contents (Elt Ideal)) (x3 x4 : (⟨S384x384, .f32⟩ : BufTy).Contents (Elt Ideal)) (x5 x6 : (⟨S640x640, .f32⟩ : BufTy).Contents (Elt Ideal)) (x7 x8 : (⟨S896x896, .f32⟩ : BufTy).Contents (Elt Ideal)) :
    val_main_v24 (F := Ideal) x0 x1 x2 x3 x4 x5 x6 x7 x8
      = blockDiag 32768 x0 (val_main_v1 (F := Ideal) x1) (val_main_v4 (F := Ideal) x2) (val_main_v7 (F := Ideal) x3)
          (val_main_v10 (F := Ideal) x4) (val_main_v13 (F := Ideal) x5) (val_main_v16 (F := Ideal) x6)
          (val_main_v19 (F := Ideal) x7) (val_main_v22 (F := Ideal) x8) :=
  eq_blockDiag x0 _ _ _ _ _ _ _ _ _
    (joined0 x0 x1 x2 x3 x4 x5 x6 x7 x8) (joined1 x0 x1 x2 x3 x4 x5 x6 x7 x8) (joined2 x0 x1 x2 x3 x4 x5 x6 x7 x8)
    (joined3 x0 x1 x2 x3 x4 x5 x6 x7 x8) (joined4 x0 x1 x2 x3 x4 x5 x6 x7 x8) (joined5 x0 x1 x2 x3 x4 x5 x6 x7 x8)
    (joined6 x0 x1 x2 x3 x4 x5 x6 x7 x8) (joined7 x0 x1 x2 x3 x4 x5 x6 x7 x8)

end Cert.ReferenceIdeal.RefValue

end
-- ==== Proof.lean ====
/-
  Eight linear maps on eight column segments: the kernel against its reference, on the extended reals.

  Both programs take a 32768 x 4096 matrix x and eight square weight matrices W_0, ..., W_7 of widths 128, 128, 384,
  384, 640, 640, 896, 896, and return the 32768 x 4096 matrix whose columns s_l .. s_l + w_l - 1 (s_l the sum of the
  widths before l) are the same columns of x multiplied by the transpose of W_l:

      out (r, s_l + q) = sum over k < w_l of x (r, s_l + k) * W_l (q, k).

  The reference slices x, multiplies each slice by the transposed weight and joins the products along the columns. The
  kernel transposes the weights once, then works on 512 rows at a time: it rounds each column slab of the block and
  each transposed weight to a narrower float format, multiplies them accumulating from zero, and stores the product
  into the same columns of the output block. On the extended reals a change of float format is the identity and a
  matrix product is the sum of its products, so both results are the function above (`SliceLinear.blockDiag`). No
  algebraic law is needed between the two sides, only that both lay the same sums out in the same places, so the
  finiteness of the inputs is not used.

  `KernelValue` reads the kernel's run (over `KernelBlock`, the block one grid point leaves), `ReferenceValue` the
  reference's. The three frames are the generated runs; the idealized kernel is the kernel's own text read on the
  extended reals, so nothing is owed for it.
-/
import proofs.«171077_j14791867368254_2_alg».proof.Defs
import proofs.«171077_j14791867368254_2_alg».proof.Proof.Gen.Kernel
import proofs.«171077_j14791867368254_2_alg».proof.Proof.Gen.Kernel.Frame
import proofs.«171077_j14791867368254_2_alg».proof.Proof.Gen.KernelIdeal
import proofs.«171077_j14791867368254_2_alg».proof.Proof.Gen.KernelIdeal.Frame
import proofs.«171077_j14791867368254_2_alg».proof.Proof.Gen.KernelIdeal.Value
import proofs.«171077_j14791867368254_2_alg».proof.Proof.Gen.ReferenceIdeal
import proofs.«171077_j14791867368254_2_alg».proof.Proof.Gen.ReferenceIdeal.Run
import proofs.«171077_j14791867368254_2_alg».proof.Proof.Gen.ReferenceIdeal.Read
import proofs.«171077_j14791867368254_2_alg».proof.Proof.Gen.Pre_finite_inputs
import proofs.«171077_j14791867368254_2_alg».proof.Proof.KernelValue
import proofs.«171077_j14791867368254_2_alg».proof.Proof.ReferenceValue
import Idealize.ShloMosaic.Adequacy
import Idealize.ShloMosaic.Init

noncomputable section

namespace Cert.Proof

open Idealize.ShloMosaic Idealize.SL.Sem

/-- The kernel runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- Both programs end with the input times the block-diagonal matrix of the transposed weights: the kernel's result
    array by `KernelIdeal.ArrayValue.run`, the reference's by its generated run read as `RefValue.result_eq`; from
    arguments that agree these are one array. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v24_eq, Cert.ReferenceIdeal.RefValue.result_eq, a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
